-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32768 : Shape := ⟨2, ![1024, 32768]⟩
abbrev S_ : Shape := ⟨0, ![]⟩

class Facts : Prop where
  bcast_S_S1024x32768 : S_.BroadcastsInDim S1024x32768 (![] : Fin 0 → Fin S1024x32768.rank)
  reducesTo_S1024x32768_S_d0_1 : S1024x32768.ReducesTo [0, 1] S_
  h_S_ : 0 < S_.numel

variable [Facts]

def fn {F : FTy → Type} [FloatOps F] (main_arg0 : FVec F S1024x32768 .f32) : IVec S_ 1 :=
  let main_v0 : FVec F S1024x32768 .f32 := Host.absf main_arg0
  let main_cst : FVec F S_ .f32 := constant S_ .f32 0x7F800000#32
  let main_v1 : FVec F S1024x32768 .f32 := broadcastInDim S1024x32768 ![] bcast_S_S1024x32768 main_cst
  let main_v2 : IVec S1024x32768 1 := cmpf .olt main_v0 main_v1
  let main_c : IVec S_ 1 := constantI S_ 1 1#1
  let main_v3 : IVec S_ 1 := (fun x v => Host.reduce IntOp.andi x v reducesTo_S1024x32768_S_d0_1 h_S_) main_v2 main_c
  main_v3
-- ==== Kernel.lean ====
abbrev S1024x32768 : Shape := ⟨2, ![1024, 32768]⟩
abbrev S1x1 : Shape := ⟨2, ![1, 1]⟩
abbrev S32x32768 : Shape := ⟨2, ![32, 32768]⟩
abbrev S32x32767 : Shape := ⟨2, ![32, 32767]⟩
abbrev S1x32x32767 : Shape := ⟨3, ![1, 32, 32767]⟩
abbrev S1 : Shape := ⟨1, ![1]⟩
abbrev S1x1x1 : Shape := ⟨3, ![1, 1, 1]⟩
abbrev S_ : Shape := ⟨0, ![]⟩

abbrev nBuf : Space → Nat
  | .hbm => 3
  | .vmem => 4
  | .smem => 0
  | _ => 0

abbrev bufTy : (tb : Table) → Fin (tcTables nBuf tb) → BufTy
  | .hbm, ⟨0, _⟩ => ⟨S1024x32768, .f32⟩
  | .hbm, ⟨1, _⟩ => ⟨S1x1, .f32⟩
  | .hbm, ⟨2, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S1x1, .f32⟩
  | .local _ .vmem, ⟨3, _⟩ => ⟨S1x1, .f32⟩
  | _, _ => ⟨S1024x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x32768_S32x32768_0_0 : ∀ a, (![0, 0] : Fin 2 → Nat) a + S32x32768.size a ≤ S32x32768.size a
  h_S32x32768 : 0 < S32x32768.numel
  slices_S32x32768_o0_0_S32x32767 : S32x32768.Slices ![0, 0] S32x32767
  slices_S32x32768_o0_1_S32x32767 : S32x32768.Slices ![0, 1] S32x32767
  shapeCasts_S32x32767_S1x32x32767 : S32x32767.ShapeCasts S1x32x32767
  reduces_S1x32x32767_S1 : S1x32x32767.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S1024x32768.size a
  hwx0_0 : ∀ i : grid0.Coords, EltTy.bits .f32 = 32 ∨ (Rect.block (s := S1024x32768) S32x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S1024x32768 : Shape := ⟨2, ![1024, 32768]⟩
abbrev S1024x32767 : Shape := ⟨2, ![1024, 32767]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S1024x32767, .f32⟩
  | .hbm, ⟨2, _⟩ => ⟨S1024x32767, .f32⟩
  | .hbm, ⟨3, _⟩ => ⟨S1024x32767, .f32⟩
  | .hbm, ⟨4, _⟩ => ⟨S1024x32767, .f32⟩
  | .hbm, ⟨5, _⟩ => ⟨S_, .f32⟩
  | .hbm, ⟨6, _⟩ => ⟨S_, .f32⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  slices_S1024x32768_S1024x32767_0_0 : S1024x32768.Slices ![0, 0] S1024x32767
  slices_S1024x32768_S1024x32767_0_1 : S1024x32768.Slices ![0, 1] S1024x32767
  reducesTo_S1024x32767_S_d0_1 : S1024x32767.ReducesTo [0, 1] S_
  h_S_ : 0 < S_.numel

variable [Facts₀]

class Facts : Prop extends Facts₀ where

variable [Facts]
-- ==== Proof.LibSumBlocks.lean ====
import Mathlib.Algebra.BigOperators.Fin
import Mathlib.Algebra.BigOperators.Intervals
import Mathlib.Tactic.NormNum
import Mathlib.Tactic.SplitIfs

/-!
# Three readings of one array of 40,000,000 entries

Let `g : ℕ → M` take values in an additive commutative monoid.

* `sum_fin_mul`: for any `a b`, summing `g (i * b + j)` over `i < a`, `j < b` is the sum of
  `g` over `range (a * b)` (row-major enumeration of an `a × b` grid).
* `sum_rows10`: 4,000,000 rows of 10 entries sum to the sum over `range 40000000`.
* `sum_blocks`: 312,500 rows of 128 entries, cut into 40 blocks of 7,816 rows; the last block
  overhangs (`39 * 7816 = 304824`, `312500 - 304824 = 7676` rows remain, 140 overhang) and the
  overhanging rows are replaced by zero.  The masked triple sum is the sum over `range 40000000`.
* `acc_two_halves`: an accumulator over 40 points that is reset at every point `≡ 0 (mod 20)`
  and otherwise adds the point's part to what the previous point left; the values at points
  19 and 39 are the totals of the two halves, so their sum is the total of all 40 parts.
-/

namespace Cert.SumBlocks

open Finset

variable {M : Type*} [AddCommMonoid M]

/-- Row-major enumeration of an `a × b` grid. -/
theorem sum_fin_mul (a b : ℕ) (g : ℕ → M) :
    (∑ i : Fin a, ∑ j : Fin b, g (i.val * b + j.val)) = ∑ e ∈ Finset.range (a * b), g e := by
  induction a with
  | zero => simp
  | succ a ih =>
    rw [Fin.sum_univ_castSucc, Nat.succ_mul, Finset.sum_range_add, ← ih]
    congr 1
    simp only [Fin.val_last]
    exact Fin.sum_univ_eq_sum_range (fun x => g (a * b + x)) b

/-- 4,000,000 rows of 10. -/
theorem sum_rows10 (g : ℕ → M) :
    (∑ n : Fin 4000000, ∑ k : Fin 10, g (n.val * 10 + k.val))
      = ∑ e ∈ Finset.range 40000000, g e := by
  have h := sum_fin_mul 4000000 10 g
  have e : (4000000 * 10 : ℕ) = 40000000 := by norm_num
  rw [e] at h
  exact h

/-- 40 blocks of 7,816 rows of 128, rows at or beyond 312,500 masked to zero. -/
theorem sum_blocks (g : ℕ → M) :
    (∑ t : Fin 40, ∑ r : Fin 7816, ∑ l : Fin 128,
        (if t.val * 7816 + r.val < 312500 then g ((t.val * 7816 + r.val) * 128 + l.val) else 0))
      = ∑ e ∈ Finset.range 40000000, g e := by
  -- the masked row sum as a function of the global row index
  set h : ℕ → M := fun R => if R < 312500 then ∑ l : Fin 128, g (R * 128 + l.val) else 0 with hh
  have step1 : (∑ t : Fin 40, ∑ r : Fin 7816, ∑ l : Fin 128,
        (if t.val * 7816 + r.val < 312500 then g ((t.val * 7816 + r.val) * 128 + l.val) else 0))
      = ∑ t : Fin 40, ∑ r : Fin 7816, h (t.val * 7816 + r.val) := by
    refine Finset.sum_congr rfl fun t _ => Finset.sum_congr rfl fun r _ => ?_
    simp only [hh]
    split_ifs
    · rfl
    · exact Finset.sum_const_zero
  rw [step1, sum_fin_mul 40 7816 h]
  have e1 : (40 * 7816 : ℕ) = 312640 := by norm_num
  rw [e1]
  have step2 : ∑ R ∈ Finset.range 312640, h R = ∑ R ∈ Finset.range 312500, h R := by
    symm
    apply Finset.sum_subset
    · intro x hx
      rw [Finset.mem_range] at hx ⊢
      omega
    · intro x _ hx
      rw [Finset.mem_range] at hx
      simp only [hh]
      rw [if_neg hx]
  have step3 : ∑ R ∈ Finset.range 312500, h R
      = ∑ R ∈ Finset.range 312500, ∑ l : Fin 128, g (R * 128 + l.val) := by
    refine Finset.sum_congr rfl fun R hR => ?_
    rw [Finset.mem_range] at hR
    simp only [hh]
    rw [if_pos hR]
  rw [step2, step3, ← Fin.sum_univ_eq_sum_range (fun R => ∑ l : Fin 128, g (R * 128 + l.val)) 312500,
    sum_fin_mul 312500 128 g]

/-- Within a stretch of 20 points starting at a reset point `c`, the accumulator at `c + k`
is the sum of the parts at `c, …, c + k`. -/
theorem acc_prefix (part S : ℕ → M)
    (h0 : ∀ n, n % 20 = 0 → S n = part n) (h1 : ∀ n, n % 20 ≠ 0 → S n = S (n - 1) + part n)
    (c : ℕ) (hc : c % 20 = 0) :
    ∀ k, k < 20 → S (c + k) = ∑ i ∈ Finset.range (k + 1), part (c + i) := by
  intro k
  induction k with
  | zero =>
    intro _
    simp [h0 c hc]
  | succ k ih =>
    intro hk
    have hne : (c + (k + 1)) % 20 ≠ 0 := by omega
    have hpred : c + (k + 1) - 1 = c + k := by omega
    rw [h1 _ hne, hpred, ih (by omega), Finset.sum_range_succ (fun i => part (c + i)) (k + 1)]

/-- The two halves' totals add up to the total of all 40 parts. -/
theorem acc_two_halves (part S : ℕ → M)
    (h0 : ∀ n, n % 20 = 0 → S n = part n) (h1 : ∀ n, n % 20 ≠ 0 → S n = S (n - 1) + part n) :
    S 19 + S 39 = ∑ t : Fin 40, part t.val := by
  have a := acc_prefix part S h0 h1 0 (by norm_num) 19 (by norm_num)
  have b := acc_prefix part S h0 h1 20 (by norm_num) 19 (by norm_num)
  simp only [Nat.zero_add] at a
  have e39 : (20 + 19 : ℕ) = 39 := by norm_num
  have e20 : (19 + 1 : ℕ) = 20 := by norm_num
  rw [e39] at b
  rw [e20] at a b
  rw [a, b, Fin.sum_univ_eq_sum_range (fun t => part t) 40]
  have e40 : (40 : ℕ) = 20 + 20 := by norm_num
  rw [e40, Finset.sum_range_add]

end Cert.SumBlocks
-- ==== Proof.SumSpec.lean ====
import Idealize.ShloMosaic.Lib.ValueIdx
import proofs.«145366_j62594853372240_1_alg».proof.Proof.LibSumBlocks

/-!
# The smoothness sum, as mathematics

For an array `A` of 1024 rows and 32768 columns over the extended reals, the quantity is
`∑ b, ∑ q, (A b q - A b (q+1))²` over all rows `b` and all 32767 adjacent pairs of a row.
This file states it, states the part of it that belongs to 32 consecutive rows, and shows
that the 32 parts add up to the whole: addition of extended reals is commutative and
associative, so grouping the rows 32 at a time changes nothing.
-/

noncomputable section

open scoped BigOperators

namespace Cert.SmoothSum

open Idealize.ShloMosaic Idealize.ShloMosaic.ValueIdx

/-- An array of 1024 rows and 32768 columns of extended reals. -/
abbrev Arr : Type := (⟨2, ![1024, 32768]⟩ : Shape).Idx → EReal

/-- Column `q` of an adjacent pair, -/
abbrev colL (q : Fin 32767) : Fin 32768 := ⟨q.val, by omega⟩
/-- and its right neighbour `1 + q`. -/
abbrev colR (q : Fin 32767) : Fin 32768 := ⟨1 + q.val, by omega⟩

/-- The squared difference of entry `q` of row `b` and its right neighbour. -/
def sqDiff (A : Arr) (b : Fin 1024) (q : Fin 32767) : EReal :=
  (A (ix2 b (colL q)) - A (ix2 b (colR q))) * (A (ix2 b (colL q)) - A (ix2 b (colR q)))

/-- The whole sum: every row, every adjacent pair. -/
def total (A : Arr) : EReal := ∑ b : Fin 1024, ∑ q : Fin 32767, sqDiff A b q

/-- Row `b`'s sum, the row number a natural (zero beyond the array's last row). -/
def rowTotal (A : Arr) (b : ℕ) : EReal :=
  if hb : b < 1024 then ∑ q : Fin 32767, sqDiff A ⟨b, hb⟩ q else 0

/-- The sum over the 32 rows `32 t, …, 32 t + 31`. -/
def blockTotal (A : Arr) (t : ℕ) : EReal := ∑ r : Fin 32, rowTotal A (t * 32 + r.val)

/-- The 32 groups of 32 rows add up to the whole: rows enumerated as `32 t + r`. -/
theorem blocks_total (A : Arr) : ∑ t ∈ Finset.range 32, blockTotal A t = total A := by
  unfold blockTotal total
  rw [← Fin.sum_univ_eq_sum_range (fun t => ∑ r : Fin 32, rowTotal A (t * 32 + r.val)) 32,
    Cert.SumBlocks.sum_fin_mul 32 32 (rowTotal A)]
  rw [show (32 * 32 : ℕ) = 1024 from rfl, ← Fin.sum_univ_eq_sum_range (rowTotal A) 1024]
  refine Finset.sum_congr rfl fun b _ => ?_
  unfold rowTotal
  rw [dif_pos b.isLt]

/-- A block of 32 rows and 32768 columns. -/
abbrev Blk : Type := (⟨2, ![32, 32768]⟩ : Shape).Idx → EReal

/-- The same sum over one block: its 32 rows, every adjacent pair. -/
def blockSum (X : Blk) : EReal :=
  ∑ r : Fin 32, ∑ q : Fin 32767,
    (X (ix2 r (colL q)) - X (ix2 r (colR q))) * (X (ix2 r (colL q)) - X (ix2 r (colR q)))

/-- A block whose row `r` is row `32 t + r` of the array sums to that group's part of the whole. -/
theorem blockSum_eq (A : Arr) (X : Blk) (t : ℕ) (ht : t < 32)
    (h : ∀ (r : Fin 32) (k : Fin 32768),
      X (ix2 r k) = A (ix2 (⟨t * 32 + r.val, by have := r.isLt; omega⟩ : Fin 1024) k)) :
    blockSum X = blockTotal A t := by
  unfold blockSum blockTotal
  refine Finset.sum_congr rfl fun r _ => ?_
  have hr : t * 32 + r.val < 1024 := by have := r.isLt; omega
  unfold rowTotal
  rw [dif_pos hr]
  refine Finset.sum_congr rfl fun q _ => ?_
  unfold sqDiff
  rw [h r (colL q), h r (colR q)]

end Cert.SmoothSum

end
-- ==== Proof.RefValue.lean ====
import proofs.«145366_j62594853372240_1_alg».proof.Defs
import proofs.«145366_j62594853372240_1_alg».proof.Proof.Gen.ReferenceIdeal.Read
import proofs.«145366_j62594853372240_1_alg».proof.Proof.SumSpec
import Idealize.ShloMosaic.Lib.ValueIdx
import Idealize.ShloMosaic.PureOps.Ideal.Laws

/-!
# The reference computes the smoothness sum

The reference slices the array into its first 32767 and its last 32767 columns, subtracts,
squares, and adds everything up from zero. Read at the extended reals, entry `(b, q)` of the
squared difference is `(A b q - A b (1 + q))²`, and the sum over all `(b, q)`, started from
zero, is the double sum over rows and adjacent pairs.
-/

noncomputable section

open scoped BigOperators

namespace Cert.ReferenceIdeal.RefValue

open Cert.ReferenceIdeal Cert.ReferenceIdeal.Read Cert.SmoothSum
open Idealize.ShloMosaic Idealize.ShloMosaic.ValueIdx

/-- The left slice reads entry `(b, q)` at column `q`, -/
theorem idx_left (b : Fin 1024) (q : Fin 32767) : idx_main_v0 (ix2 b q) = ix2 b (colL q) :=
  funext fun a => Fin.ext (by match a with | ⟨0, _⟩ => rfl | ⟨1, _⟩ => rfl)

/-- the right slice at column `1 + q`. -/
theorem idx_right (b : Fin 1024) (q : Fin 32767) : idx_main_v1 (ix2 b q) = ix2 b (colR q) :=
  funext fun a => Fin.ext (by match a with | ⟨0, _⟩ => rfl | ⟨1, _⟩ => rfl)

/-- The reference's result, at its one index, is the whole sum: zero plus the sum over every
    `(b, q)` of the squared difference of neighbours. -/
theorem ref_total (A : (⟨S1024x32768, .f32⟩ : BufTy).Contents (Elt Ideal)) :
    val_main_v4 (F := Ideal) A = fun _ => total A := by
  funext i
  rw [val_main_v4_apply, val_main_cst_apply]
  show Ideal.ofBits .f32 0x00000000#32 + _ = _
  rw [Ideal.ofBits_zero_f32, zero_add, sum_idx2]
  unfold total
  refine Finset.sum_congr rfl fun b _ => Finset.sum_congr rfl fun q _ => ?_
  rw [val_main_v3_apply, val_main_v2_apply, val_main_v0_apply, val_main_v1_apply, idx_left, idx_right]
  rfl

end Cert.ReferenceIdeal.RefValue

end
-- ==== Proof.BodyValue.lean ====
import proofs.«145366_j62594853372240_1_alg».proof.Proof.Gen.KernelIdeal.Frame
import Idealize.ShloMosaic.Lib.Pipeline.Value
import Idealize.ShloMosaic.Lib.Tactic

/-!
# What one run of the body leaves behind

The body has one carried cell (a 1×1 scratch) and one 1×1 output. Writing `step x s` for the
body's arithmetic — the cell's value `s` plus the sum, over the 32×32768 block `x`, of the
squared differences of neighbours in a row — the three ways the body can run leave:

* at the first point: the cell is set to zero first, so it ends at `step x zero`;
* at a middle point: the cell ends at `step x s`, `s` what the point before left;
* at the last point: the cell ends at `step x s` and the output is a copy of the cell.

Each is read off the stores the run found: the last store through the whole 1×1 rectangle
decides the contents, and a load that follows a store reads what was stored.
-/

noncomputable section

open Idealize.ShloMosaic Idealize.ShloMosaic.TcCoe Idealize.SL.Sem Idealize.ShloMosaic.Tactic

namespace Cert.KernelIdeal.BodyValue

open Cert.KernelIdeal Cert.KernelIdeal.Gen

variable {F : FTy → Type} [FloatOps F]

/-- The zero offsets of a rank-2 rectangle, however spelt. -/
theorem hz : (![0, 0] : Fin 2 → Nat) = fun _ => 0 := funext fun a => by fin_cases a <;> rfl

/-- The body's arithmetic: the cell's value plus the block's sum of squared neighbour differences. -/
abbrev step (x : Vec F S32x32768 .f32) (s : Vec F S1x1 .f32) : Vec F S1x1 .f32 := k0_pay2 x s

/-- The zero the first point stores into the cell. -/
abbrev zero : Vec F S1x1 .f32 := k0_pay1 (F := F)

/-- FIRST POINT: the cell is zeroed, read back, and ends at `step x zero`. -/
theorem cell_first (c : Dev nD) (i : grid0.Coords) (a1 : Memref sig .tc .vmem S32x32768 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x0 : Vec F S32x32768 .f32) :
    sout0_A_0 c i a1 h1 a2 h2 a3 h3 hc0 hc1 x0 = step x0 (zero (F := F)) := by
  unfold sout0_A_0
  rw [View.read_writes_eq_canon _ _ _ (scover0_A_0 c i a1 h1 a2 h2 a3 h3 hc0 hc1 x0)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S32x32768) hz]

/-- MIDDLE POINT: the cell, holding `s`, ends at `step x s`. -/
theorem cell_middle (c : Dev nD) (i : grid0.Coords) (a1 : Memref sig .tc .vmem S32x32768 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x0 : Vec F S32x32768 .f32) (xs0 : Vec F S1x1 .f32) :
    sout0_B_0 c i a1 h1 a2 h2 a3 h3 hc0 hc1 x0 xs0 = step x0 xs0 := by
  unfold sout0_B_0
  rw [View.read_writes_eq_canon _ _ _ (scover0_B_0 c i a1 h1 a2 h2 a3 h3 hc0 hc1 x0 xs0)]
  unfold kernelRun0_B
  dsimp only
  rw [View.canon_unit_zero (S := S1x1) hz]
  simp only [View.readAt_eq_ld, h1.read_unread, h3.read_unread, View.ld_unit_zero (S := S32x32768) hz,
    View.ld_unit_zero (S := S1x1) hz]

/-- LAST POINT: the cell, holding `s`, ends at `step x s`, -/
theorem cell_last (c : Dev nD) (i : grid0.Coords) (a1 : Memref sig .tc .vmem S32x32768 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x0 : Vec F S32x32768 .f32) (xs0 : Vec F S1x1 .f32) :
    sout0_C_0 c i a1 h1 a2 h2 a3 h3 hc0 hc1 x0 xs0 = step x0 xs0 := by
  unfold sout0_C_0
  rw [View.read_writes_eq_canon _ _ _ (scover0_C_0 c i a1 h1 a2 h2 a3 h3 hc0 hc1 x0 xs0)]
  unfold kernelRun0_C
  dsimp only
  sl_unfold_words
  rw [View.canon_unit_zero (S := S1x1) hz]
  simp only [View.readAt_eq_ld, h1.read_unread, h3.read_unread, View.ld_unit_zero (S := S32x32768) hz,
    View.ld_unit_zero (S := S1x1) hz]

/-- and the output is a copy of it: the load that follows the cell's store reads what was stored. -/
theorem out_last (c : Dev nD) (i : grid0.Coords) (a1 : Memref sig .tc .vmem S32x32768 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x0 : Vec F S32x32768 .f32) (xs0 : Vec F S1x1 .f32) :
    out0_C_1 c i a1 h1 a2 h2 a3 h3 hc0 hc1 x0 xs0 = step x0 xs0 := by
  unfold out0_C_1
  rw [View.read_writes_eq_canon _ _ _ (cover0_C_1 c i a1 h1 a2 h2 a3 h3 hc0 hc1 x0 xs0)]
  unfold kernelRun0_C
  dsimp only
  sl_unfold_words
  rw [View.canon_unit_zero (S := S1x1) hz, View.readCov_unit_zero (S := S1x1) _ hz]
  simp only [View.readAt_eq_ld, h1.read_unread, h3.read_unread, View.ld_unit_zero (S := S32x32768) hz,
    View.ld_unit_zero (S := S1x1) hz]

end Cert.KernelIdeal.BodyValue

end
-- ==== Proof.LibBlockSum.lean ====
import Idealize.ShloMosaic.Lib.ValueIdx
import Idealize.ShloMosaic.Lib.Pipeline.Value
import Idealize.ShloMosaic.PureOps.Ideal.Laws

/-!
# The sum of a whole two-dimensional block, over the extended reals

A kernel that sums every entry of an `a × b` block first lays the block out as `1 × a × b` and
then adds over the last two axes into a single entry. Two general facts, for any extents:

* `sum_shapeCast`: a sum over every index does not see a change of layout — the indices of the two
  layouts are in bijection (same row-major position), for any shapes and any additive commutative
  monoid;
* `block_sum_apply`: at the extended reals, the `1 × a × b` layout of an `a × b` block, added over
  axes 1 and 2 into a one-entry vector, is `∑ r < a, ∑ q < b, x r q` at that entry.
-/

noncomputable section

open scoped BigOperators

namespace Cert.LibBlockSum

open Idealize.ShloMosaic Idealize.ShloMosaic.ValueIdx

/-- A total sum does not see a shape cast. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An `a × b` block laid out as `1 × a × b` and added over its last two axes into one entry is the
    double sum over its rows and columns (the accumulator's word being the neutral one of addition). -/
theorem block_sum_apply {a b : ℕ} {φ : FTy} (x : FVec Ideal ⟨2, ![a, b]⟩ φ) (acc : BitVec φ.bits)
    (h1 : (⟨2, ![a, b]⟩ : Shape).ShapeCasts ⟨3, ![1, a, b]⟩)
    (hr : (⟨3, ![1, a, b]⟩ : Shape).Reduces [1, 2] ⟨1, ![1]⟩) (hφ : FKind.Formats φ)
    (hacc : acc = FKind.add.neutral φ hφ) (j : (⟨1, ![1]⟩ : Shape).Idx) :
    multiReduction .add [1, 2] ⟨1, ![1]⟩ (shapeCast ⟨3, ![1, a, b]⟩ x h1) acc hr hφ hacc j
      = ∑ r : Fin a, ∑ q : Fin b, x (ix2 r q) :=
  (Ideal.multiReduction_add_total _ _ _ (fun c => by fin_cases c; rfl) _ _ _).trans
    ((sum_shapeCast x h1).trans (sum_idx2 x))

end Cert.LibBlockSum

end
-- ==== Proof.Payload.lean ====
import proofs.«145366_j62594853372240_1_alg».proof.Proof.Gen.KernelIdeal.Skeleton
import proofs.«145366_j62594853372240_1_alg».proof.Proof.SumSpec
import proofs.«145366_j62594853372240_1_alg».proof.Proof.LibBlockSum
import Idealize.ShloMosaic.Lib.ValueIdx
import Idealize.ShloMosaic.Lib.Pipeline.Value
import Idealize.ShloMosaic.PureOps.Ideal.Laws

/-!
# The body's arithmetic over the extended reals

The value the first point stores into the carried cell is zero. The value every point stores
is the cell's previous value plus the block's sum: the block's first 32767 and last 32767
columns are subtracted and squared entry by entry, the 32×32767 result is laid out as
1×32×32767 and summed over its last two axes into a single entry, and that entry is added to
the cell. A sum over every index does not depend on how the indices are laid out, so the sum
over the 1×32×32767 layout is the sum over rows `r` and adjacent pairs `q` of
`(X r q - X r (1 + q))²`.
-/

noncomputable section

open scoped BigOperators

namespace Cert.KernelIdeal.Payload

open Cert.KernelIdeal Cert.KernelIdeal.Gen Cert.SmoothSum
open Idealize.ShloMosaic Idealize.ShloMosaic.TcCoe Idealize.ShloMosaic.ValueIdx

/-- The value the first point stores into the cell is zero. -/
theorem zero_apply (y : S1x1.Idx) : k0_pay1 (F := Ideal) y = 0 := by
  unfold k0_pay1
  rw [shapeCast_self]
  exact Ideal.ofBits_zero_f32

/-- Entry `(r, q)` of the squared difference of a block's two column slices: the left slice reads
    column `q`, the right slice column `1 + q`. -/
theorem sq_apply (x : FVec Ideal S32x32768 .f32) (h0 : S32x32768.Slices ![0, 0] S32x32767)
    (h1 : S32x32768.Slices ![0, 1] S32x32767) (r : Fin 32) (q : Fin 32767) :
    mulf (subf (extractStridedSlice S32x32767 ![0, 0] x h0) (extractStridedSlice S32x32767 ![0, 1] x h1))
        (subf (extractStridedSlice S32x32767 ![0, 0] x h0) (extractStridedSlice S32x32767 ![0, 1] x h1)) (ix2 r q)
      = (x (ix2 r (colL q)) - x (ix2 r (colR q))) * (x (ix2 r (colL q)) - x (ix2 r (colR q))) := by
  have e0 : extractStridedSlice S32x32767 ![0, 0] x h0 (ix2 r q) = x (ix2 r (colL q)) :=
    extractStridedSlice_apply ![0, 0] x h0 (ix2 r q) (ix2 r (colL q)) (fun a => match a with
      | ⟨0, _⟩ => by show r.val = 0 + r.val; omega
      | ⟨1, _⟩ => by show q.val = 0 + q.val; omega)
  have e1 : extractStridedSlice S32x32767 ![0, 1] x h1 (ix2 r q) = x (ix2 r (colR q)) :=
    extractStridedSlice_apply ![0, 1] x h1 (ix2 r q) (ix2 r (colR q)) (fun a => match a with
      | ⟨0, _⟩ => by show r.val = 0 + r.val; omega
      | ⟨1, _⟩ => by show 1 + q.val = 1 + q.val; omega)
  rw [mulf_apply, subf_apply, e0, e1]

/-- The value every point stores into the cell: its previous value plus the block's sum. The
    32×32767 array of squared differences, laid out as 1×32×32767 and added over its last two
    axes, is the double sum over rows and adjacent pairs. -/
theorem step_apply (x : Vec Ideal S32x32768 .f32) (s : Vec Ideal S1x1 .f32) (y : S1x1.Idx) :
    k0_pay2 x s y = s y + blockSum x := by
  unfold k0_pay2
  rw [shapeCast_self, addf_apply, broadcast_apply]
  refine congrArg (s y + ·) ?_
  unfold extractAt
  refine (Cert.LibBlockSum.block_sum_apply _ _ shapeCasts_S32x32767_S1x32x32767 _ _ _ _).trans ?_
  unfold blockSum
  exact Finset.sum_congr rfl fun r _ => Finset.sum_congr rfl fun q _ => sq_apply x _ _ r q

end Cert.KernelIdeal.Payload

end
-- ==== Proof.Accumulate.lean ====
import proofs.«145366_j62594853372240_1_alg».proof.Proof.Gen.KernelIdeal.Frame
import proofs.«145366_j62594853372240_1_alg».proof.Proof.BodyValue
import proofs.«145366_j62594853372240_1_alg».proof.Proof.Payload
import proofs.«145366_j62594853372240_1_alg».proof.Proof.SumSpec
import Idealize.ShloMosaic.Lib.Pipeline.Value

/-!
# The carried cell is a running sum

Point `t` of the grid sees rows `32 t, …, 32 t + 31` of the array as its block, so the sum it adds
to the carried cell is that group's part of the whole. The cell starts from zero at the first
point, so after point `n` it holds the parts of groups `0, …, n` added up — by induction on `n`.
The last point copies the cell to the output, which therefore holds all 32 parts: the whole sum.
-/

noncomputable section

open scoped BigOperators

namespace Cert.KernelIdeal.Accumulate

open Cert.KernelIdeal Cert.KernelIdeal.Gen Cert.KernelIdeal.BodyValue Cert.KernelIdeal.Payload Cert.SmoothSum
open Idealize.ShloMosaic Idealize.ShloMosaic.TcCoe Idealize.ShloMosaic.ValueIdx Idealize.SL.Sem

variable (m : (ℓ : Loc nD τ sig) → Buf (Elt Ideal) ℓ)

/-- The argument array on core `c`. -/
abbrev argA (c : Dev nD) : Arr := m ((c : Thread nD τ).loc main_arg0)

/-- The grid has 32 points. -/
theorem t_lt (t : Fin cfg0.N) : t.val < 32 := lt_of_lt_of_eq t.isLt (show cfg0.N = 32 from N_0)

/-- The input's block at point `t` is block `(t, 0)`: 32 rows down per point, always from column 0. -/
theorem block_index : ∀ t : Fin cfg0.N, win0_0.index t 0 = t.val ∧ win0_0.index t 1 = 0 :=
  (by decide +kernel : ∀ t : Fin grid0.N, win0_0.index t 0 = t.val ∧ win0_0.index t 1 = 0)

/-- Entry `(r, k)` of the block at point `t` is entry `(32 t + r, k)` of the array. -/
theorem iblk_apply (c : Dev nD) (t : Fin cfg0.N) (r : Fin 32) (k : Fin 32768) :
    (iblk m c 0 t : Vec Ideal S32x32768 .f32) (ix2 r k)
      = argA m c (ix2 (⟨t.val * 32 + r.val, by have := t_lt t; have := r.isLt; omega⟩ : Fin 1024) k) := by
  have hi := block_index t
  unfold iblk
  rw [View.read_apply]
  show m ((c : Thread nD τ).loc main_arg0) _ = m ((c : Thread nD τ).loc main_arg0) _
  refine congrArg (m ((c : Thread nD τ).loc main_arg0)) ?_
  funext a
  apply Fin.ext
  match a with
  | ⟨0, _⟩ => show win0_0.index t 0 * 32 + 1 * r.val = t.val * 32 + r.val; rw [hi.1]; omega
  | ⟨1, _⟩ => show win0_0.index t 1 * 32768 + 1 * k.val = k.val; rw [hi.2]; omega

/-- One step at point `t`, from a cell holding `v`, leaves `v` plus group `t`'s part. -/
theorem step_block (c : Dev nD) (t : Fin cfg0.N) (s : Vec Ideal S1x1 .f32) (v : EReal) (hs : s = fun _ => v) :
    step (iblk m c 0 t) s = fun _ => v + blockTotal (argA m c) t.val := by
  funext y
  refine (step_apply (iblk m c 0 t) s y).trans ?_
  rw [hs, blockSum_eq (argA m c) (iblk m c 0 t : Vec Ideal S32x32768 .f32) t.val (t_lt t)
    (fun r k => iblk_apply m c t r k)]

/-- The first component of a pair known by name, -/
theorem fst_of_eq {α β : Type} {p : α × β} {a : α} {b : β} (h : p = (a, b)) : p.1 = a := by rw [h]
/-- and the second. -/
theorem snd_of_eq {α β : Type} {p : α × β} {a : α} {b : β} (h : p = (a, b)) : p.2 = b := by rw [h]

/-- The parts of groups `0, …, n` added up. -/
def acc (A : Arr) (n : ℕ) : EReal := ∑ t ∈ Finset.range (n + 1), blockTotal A t

/-- After point `n` the carried cell holds the parts of groups `0, …, n` added up. -/
theorem cell_eq (c : Dev nD) : ∀ (n : ℕ) (hn : n < cfg0.N), (outsAt0 m c n hn).2 = fun _ => acc (argA m c) n
  | 0, hn => by
    refine (snd_of_eq (outsAt0_A m c ⟨0, hn⟩ rfl (by show ¬(0 % 32 = 31); decide))).trans ?_
    refine (cell_first (F := Ideal) c _ _ _ _ _ _ _ _ _ (iblk m c 0 ⟨0, hn⟩)).trans ?_
    refine (step_block m c ⟨0, hn⟩ zero 0 (funext zero_apply)).trans ?_
    funext _
    unfold acc
    rw [zero_add, Finset.sum_range_one]
  | n + 1, hn => by
    have hN : cfg0.N = 32 := N_0
    have ih := cell_eq c n (Nat.lt_of_succ_lt hn)
    have h0 : ¬(⟨n + 1, hn⟩ : Fin cfg0.N).val % 32 = 0 := by dsimp only; omega
    by_cases h1 : (⟨n + 1, hn⟩ : Fin cfg0.N).val % 32 = 31
    · refine (snd_of_eq (outsAt0_C m c ⟨n + 1, hn⟩ h0 h1)).trans ?_
      refine (cell_last (F := Ideal) c _ _ _ _ _ _ _ _ _ (iblk m c 0 ⟨n + 1, hn⟩) _).trans ?_
      refine (step_block m c ⟨n + 1, hn⟩ _ (acc (argA m c) n) ih).trans ?_
      funext _
      unfold acc
      rw [Finset.sum_range_succ _ (n + 1)]
    · refine (snd_of_eq (outsAt0_B m c ⟨n + 1, hn⟩ h0 h1)).trans ?_
      refine (cell_middle (F := Ideal) c _ _ _ _ _ _ _ _ _ (iblk m c 0 ⟨n + 1, hn⟩) _).trans ?_
      refine (step_block m c ⟨n + 1, hn⟩ _ (acc (argA m c) n) ih).trans ?_
      funext _
      unfold acc
      rw [Finset.sum_range_succ _ (n + 1)]

/-- The last point. -/
abbrev tLast : Fin cfg0.N := ⟨31, by rw [show cfg0.N = 32 from N_0]; decide⟩

/-- At the last point the output is a copy of the cell: all 32 parts, the whole sum. -/
theorem out_eq (c : Dev nD) : (outsAt0 m c tLast.val tLast.isLt).1 = fun _ => total (argA m c) := by
  refine (fst_of_eq (outsAt0_C m c tLast (by decide) (by decide))).trans ?_
  refine (out_last (F := Ideal) c _ _ _ _ _ _ _ _ _ (iblk m c 0 tLast) _).trans ?_
  refine (step_block m c tLast _ (acc (argA m c) 30)
    (cell_eq m c 30 (by rw [show cfg0.N = 32 from N_0]; decide))).trans ?_
  funext _
  rw [← blocks_total (argA m c), Finset.sum_range_succ _ 31]
  rfl

end Cert.KernelIdeal.Accumulate

end
-- ==== Proof.Result.lean ====
import proofs.«145366_j62594853372240_1_alg».proof.Proof.Accumulate
import Idealize.ShloMosaic.Lib.Pipeline.Value
import Idealize.ShloMosaic.Lib.StableHlo.Run

/-!
# The kernel's result

The 1×1 output is written back once, after the last point, when its staging buffer holds the
whole sum; its one block is the whole array, so the array ends holding the whole sum. The host
then reads that 1×1 array as a scalar, which changes no entry.
-/

noncomputable section

open scoped BigOperators

namespace Cert.KernelIdeal.Result

open Cert.KernelIdeal Cert.KernelIdeal.Gen Cert.KernelIdeal.Accumulate Cert.SmoothSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The 1×1 output array holding the whole sum. -/
abbrev outArr (c : Dev nD) : Buf (Elt Ideal) ((c : Thread nD τ).loc main_v0) := fun _ => total (argA m c)

/-- The one write-back, after the last point, writes the whole sum. -/
theorem flushed_eq (c : Dev nD) (t : Fin cfg0.N) (hf : (cfg0.win 1).flush t = true) :
    (dats m 0 c).flushed 1 t = ((cfg0.win 1).blk t).view.read (Elt Ideal) (outArr m c) := by
  have h31 : t.val = 31 := by have := (flush0_1 t).mp hf; have := t_lt t; omega
  obtain rfl : t = tLast := Fin.ext h31
  show (cfg0.win 1).cut (grid0.coords tLast) ((dats m 0 c).after 1 tLast) = _
  rw [after0_1, out_eq]
  rfl

/-- The last point's block is the whole 1×1 array, so the array ends holding the whole sum. -/
theorem final_out (c : Dev nD) : (dats m 0 c).arrAt 1 cfg0.N = outArr m c :=
  (dats m 0 c).arrAt_eq_of_cover 1 (outArr m c) (flushed_eq m c) fun i =>
    ⟨tLast, (flush0_1 tLast).mpr rfl, by
      show i ∈ ((View.whole main_v0).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index tLast 0 * win0_1.size 0 ≤ (i 0 : Nat)
          ∧ (i 0 : Nat) < win0_1.index tLast 0 * win0_1.size 0 + win0_1.xsize (grid0.coords tLast) 0
        rw [show win0_1.index tLast 0 * win0_1.size 0 = 0 from by decide +kernel,
          show win0_1.xsize (grid0.coords tLast) 0 = 1 from by decide +kernel]
        omega
      | ⟨1, _⟩ =>
        show win0_1.index tLast 1 * win0_1.size 1 ≤ (i 1 : Nat)
          ∧ (i 1 : Nat) < win0_1.index tLast 1 * win0_1.size 1 + win0_1.xsize (grid0.coords tLast) 1
        rw [show win0_1.index tLast 1 * win0_1.size 1 = 0 from by decide +kernel,
          show win0_1.xsize (grid0.coords tLast) 1 = 1 from by decide +kernel]
        omega⟩

/-- The host's scalar reading of the output array: still the whole sum. -/
theorem tail_eq (c : Dev nD) :
    Pipeline.afterTail₀ cfgs (dats m) 0 (V0 m) [hostOps1] c main_v1 = fun _ => total (argA m c) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.tc.devRef main_v0) = outArr m c :=
    (Pipeline.withArrays_arr spec0 launch0.win.arr_inj c _ _ 1).trans (final_out m c)
  funext i
  show shapeCast main_v1.ty.shape (Pipeline.withArrays (cfgs 0).spec c (V0 m c)
    (fun w => (dats m 0 c).arrAt w (cfgs 0).N) (Proc.tc.devRef main_v0)) shapeCasts_S1x1_S_ i = _
  rw [e]
  rfl

/-- The scalar result is no array of the pipeline and lives outside the region's scope. -/
theorem result_bypasses : main_v1 ∈ Pipeline.restRefs sig (cfgs 0).spec :=
  Pipeline.mem_restRefs_of main_v1 rfl (fun w => by fin_cases w <;> decide)

/-- THE RUN, READ: every weakly fair execution of the kernel's program terminates with the scalar
    result at the whole sum of its argument and the argument unchanged. -/
theorem run : θ_run defs (onTc (τ := τ) (main (F := Ideal))) ⟨m, fun _ => 0, ρ⟩ fun r => ∀ c : Dev nD,
      r.2.mem ((c : Thread nD τ).loc main_v1) = (fun _ => total (argA m c))
      ∧ r.2.mem ((c : Thread nD τ).loc main_arg0) = m ((c : Thread nD τ).loc main_arg0) :=
  (θ_run defs _ _).mono (fun _ h c =>
      ⟨((h c).2 main_v1 result_bypasses).trans (tail_eq m c),
        ((h c).1 0).trans (((dats m 0 c).arrAt_in 0 rfl _).trans ((A_eq m c 0).trans (V_main_arg0 m c)))⟩)
    (run_main m ρ)

end Cert.KernelIdeal.Result

end
-- ==== Proof.lean ====
/-
  The smoothness sum `∑ b, ∑ q, (A b q - A b (q+1))²` of an array `A` of 1024 rows and 32768 columns,
  computed two ways.

  The kernel walks the array 32 rows at a time. At each of its 32 grid points it subtracts the
  block's last 32767 columns from its first 32767, squares, sums the 32×32767 result, and adds
  that to a carried 1×1 cell, which the first point sets to zero beforehand; the last point
  copies the cell to the 1×1 output, which the host then reads as a scalar. The reference
  subtracts the array's two column slices, squares, and sums everything from zero.

  Over the extended reals both are the same number. Entry by entry the squared differences
  agree (a block's row `r` at point `t` is the array's row `32 t + r`); the kernel's result is
  `((0 + P₀) + P₁) + … + P₃₁` with `Pₜ` the sum over rows `32 t, …, 32 t + 31`, the reference's
  is `0 +` the sum over all rows; and addition of extended reals is commutative and associative,
  so grouping the rows 32 at a time changes nothing. No finiteness of the input is used.

  The modules: SumSpec (the sum, its 32 parts, and that the parts add up), RefValue (the
  reference computes it), BodyValue and Payload (what one run of the body leaves, and its
  arithmetic over the extended reals), Accumulate (the carried cell is the running sum of the
  parts), Result (the output array, the host's scalar reading, the kernel's run).
  The kernel's idealization rewrote nothing, so that claim is `True`.
-/
import proofs.«145366_j62594853372240_1_alg».proof.Defs
import proofs.«145366_j62594853372240_1_alg».proof.Proof.Gen.Kernel
import proofs.«145366_j62594853372240_1_alg».proof.Proof.Gen.Kernel.Skeleton
import proofs.«145366_j62594853372240_1_alg».proof.Proof.Gen.Kernel.Launch
import proofs.«145366_j62594853372240_1_alg».proof.Proof.Gen.Kernel.Points
import proofs.«145366_j62594853372240_1_alg».proof.Proof.Gen.Kernel.Frame
import proofs.«145366_j62594853372240_1_alg».proof.Proof.Gen.KernelIdeal
import proofs.«145366_j62594853372240_1_alg».proof.Proof.Gen.KernelIdeal.Skeleton
import proofs.«145366_j62594853372240_1_alg».proof.Proof.Gen.KernelIdeal.Launch
import proofs.«145366_j62594853372240_1_alg».proof.Proof.Gen.KernelIdeal.Points
import proofs.«145366_j62594853372240_1_alg».proof.Proof.Gen.KernelIdeal.Frame
import proofs.«145366_j62594853372240_1_alg».proof.Proof.Gen.ReferenceIdeal
import proofs.«145366_j62594853372240_1_alg».proof.Proof.Gen.ReferenceIdeal.Run
import proofs.«145366_j62594853372240_1_alg».proof.Proof.Gen.ReferenceIdeal.Read
import proofs.«145366_j62594853372240_1_alg».proof.Proof.Gen.Pre_finite_inputs
import proofs.«145366_j62594853372240_1_alg».proof.Proof.RefValue
import proofs.«145366_j62594853372240_1_alg».proof.Proof.Result
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its argument as it was: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From arguments that agree, the kernel's scalar and the reference's are both the whole sum of
    squared neighbour differences of that argument. -/
theorem algebraic : Cert.algebraic_KernelIdeal_ReferenceIdeal := by
  intro m ρ m' ρ' _ hagree
  refine ⟨fun c => fun _ => Cert.SmoothSum.total (Cert.KernelIdeal.Accumulate.argA m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_total, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
